-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S1 : Shape := ⟨1, ![1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S1 : Shape := ⟨1, ![1]⟩
abbrev S4096 : Shape := ⟨1, ![4096]⟩
abbrev S8192x4096 : Shape := ⟨2, ![8192, 4096]⟩
abbrev S512x4096 : Shape := ⟨2, ![512, 4096]⟩
abbrev S256x4096 : Shape := ⟨2, ![256, 4096]⟩
abbrev S256 : Shape := ⟨1, ![256]⟩
abbrev S512x256 : Shape := ⟨2, ![512, 256]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S1, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S1, .f32⟩
  | .local _ .vmem, ⟨5, _⟩ => ⟨S256, .f32⟩
  | .local _ .vmem, ⟨6, _⟩ => ⟨S256, .f32⟩
  | .local _ .vmem, ⟨7, _⟩ => ⟨S512x256, .f32⟩
  | .local _ .vmem, ⟨8, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S1_S1_0 : ∀ a, (![0] : Fin 1 → Nat) a + S1.size a ≤ S1.size a
  h_S1 : 0 < S1.numel
  inpos_S1_p0 : ∀ a, (![0] : Fin 1 → Nat) a < S1.size a
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S4096.size a
  hwx0_3 : ∀ i : grid0.Coords, EltTy.bits .f32 = 32 ∨ (Rect.block (s := S4096) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x4096.size a
  hwx0_4 : ∀ i : grid0.Coords, EltTy.bits .f32 = 32 ∨ (Rect.block (s := S8192x4096) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S1 : Shape := ⟨1, ![1]⟩
abbrev S4096 : Shape := ⟨1, ![4096]⟩
abbrev S1x1 : Shape := ⟨2, ![1, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S1, .f32⟩
  | .hbm, ⟨3, _⟩ => ⟨S4096, .f32⟩
  | .hbm, ⟨4, _⟩ => ⟨S4096x4096, .f32⟩
  | .hbm, ⟨5, _⟩ => ⟨S1x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.DequantLinear.lean ====
/-
  A linear layer whose weight is stored as integer codes with one scale for the whole matrix.

  The weight entry (q, k) is the code at (q, k) read as a signed integer, times the scale. The layer maps a row
  x(r, ·) of the input to the row  out(r, q) = (sum over k of x(r, k) * weight(q, k)) + bias(q).

  The function is written twice: on a matrix of rows [R, K] (`rows`), and on a stack [B, S, K] of such rows
  (`stack`). Numbering the rows of the stack in row-major order, r = b * S + s, makes the two the same function:
  flattening the stack, applying `rows` and restoring the stack shape is `stack` (`unflatten_rows_flatten`).
  Every value is an extended real and nothing here needs the entries to be finite: no sum is reordered and no
  product is distributed.
-/
import Idealize.ShloMosaic.PureOps.Ideal
import Idealize.ShloMosaic.Lib.ValueIdx
import Idealize.ShloMosaic.Lib.Pipeline.Value

noncomputable section

open scoped BigOperators

namespace Cert.DequantLinear

open Idealize.ShloMosaic Idealize.ShloMosaic.ValueIdx

/-- The weight at (q, k): the signed integer code times the one scale. -/
def weight {N K : Nat} (W : IVec ⟨2, ![N, K]⟩ 32) (s : FVec Ideal ⟨1, ![1]⟩ .f32) (q : Fin N) (k : Fin K) : EReal :=
  FloatOps.sitofp (F := Ideal) .f32 (W (ix2 q k)) * s (ix1 0)

/-- The layer on a matrix of rows: entry (r, q) is the product of row r with weight row q, plus the bias at q. -/
def rows {R K N : Nat} (X : FVec Ideal ⟨2, ![R, K]⟩ .f32) (W : IVec ⟨2, ![N, K]⟩ 32) (s : FVec Ideal ⟨1, ![1]⟩ .f32)
    (b : FVec Ideal ⟨1, ![N]⟩ .f32) : FVec Ideal ⟨2, ![R, N]⟩ .f32 :=
  fun j => (∑ k : Fin K, X (ix2 (j 0) k) * weight W s (j 1) k) + b (ix1 (j 1))

/-- The layer on a stack of rows: entry (b, s, q) is the product of row (b, s) with weight row q, plus the bias at q. -/
def stack {B S K N : Nat} (X : FVec Ideal ⟨3, ![B, S, K]⟩ .f32) (W : IVec ⟨2, ![N, K]⟩ 32) (s : FVec Ideal ⟨1, ![1]⟩ .f32)
    (b : FVec Ideal ⟨1, ![N]⟩ .f32) : FVec Ideal ⟨3, ![B, S, N]⟩ .f32 :=
  fun i => (∑ k : Fin K, X (ix3 (i 0) (i 1) k) * weight W s (i 2) k) + b (ix1 (i 2))

/-- An entry of the layer depends only on one input row, one row of weight codes, the scale and one bias entry: if a
    block of input rows, a block of code rows and a block of the bias agree with the whole arrays on the row and the
    column an entry names, the layer on the blocks has that entry. -/
theorem rows_of_blocks {R K N r n : Nat} (X : FVec Ideal ⟨2, ![R, K]⟩ .f32) (W : IVec ⟨2, ![N, K]⟩ 32)
    (s : FVec Ideal ⟨1, ![1]⟩ .f32) (b : FVec Ideal ⟨1, ![N]⟩ .f32)
    (x : FVec Ideal ⟨2, ![r, K]⟩ .f32) (w : IVec ⟨2, ![n, K]⟩ 32) (s' : FVec Ideal ⟨1, ![1]⟩ .f32)
    (b' : FVec Ideal ⟨1, ![n]⟩ .f32) (y : (⟨2, ![r, n]⟩ : Shape).Idx) (i : (⟨2, ![R, N]⟩ : Shape).Idx)
    (hx : ∀ k : Fin K, x (ix2 (y 0) k) = X (ix2 (i 0) k)) (hw : ∀ k : Fin K, w (ix2 (y 1) k) = W (ix2 (i 1) k))
    (hs : s' (ix1 0) = s (ix1 0)) (hb : b' (ix1 (y 1)) = b (ix1 (i 1))) :
    rows x w s' b' y = rows X W s b i := by
  unfold rows weight
  rw [hb, hs]
  congr 1
  exact Finset.sum_congr rfl fun k _ => by rw [hx k, hw k]

variable {α : Type}

/-- Row b * S + s of the flattened stack is row (b, s) of the stack: both entries sit at the same row-major position. -/
theorem flatten_apply {B S K R : Nat} (X : (⟨3, ![B, S, K]⟩ : Shape).Idx → α)
    (h : (⟨3, ![B, S, K]⟩ : Shape).ShapeCasts ⟨2, ![R, K]⟩) (b : Fin B) (s : Fin S) (k : Fin K) (r : Fin R)
    (hr : r.val = b.val * S + s.val) : shapeCast ⟨2, ![R, K]⟩ X h (ix2 r k) = X (ix3 b s k) :=
  shapeCast_apply X h _ _ (by
    rw [Shape.rowMajor_val_three, Shape.rowMajor_val_two]
    show (b.val * S + s.val) * K + k.val = r.val * K + k.val
    rw [hr])

/-- Entry (b, s, q) of a matrix of rows restored to the stack shape is its entry (b * S + s, q). -/
theorem unflatten_apply {B S N R : Nat} (Y : (⟨2, ![R, N]⟩ : Shape).Idx → α)
    (h : (⟨2, ![R, N]⟩ : Shape).ShapeCasts ⟨3, ![B, S, N]⟩) (b : Fin B) (s : Fin S) (q : Fin N) (r : Fin R)
    (hr : r.val = b.val * S + s.val) : shapeCast ⟨3, ![B, S, N]⟩ Y h (ix3 b s q) = Y (ix2 r q) :=
  shapeCast_apply Y h _ _ (by
    rw [Shape.rowMajor_val_three, Shape.rowMajor_val_two]
    show r.val * N + q.val = (b.val * S + s.val) * N + q.val
    rw [hr])

/-- Flatten the stack to R = B * S rows, apply the layer to the rows, restore the stack shape: the layer on the stack. -/
theorem unflatten_rows_flatten {B S K N R : Nat} (hR : R = B * S) (X : FVec Ideal ⟨3, ![B, S, K]⟩ .f32)
    (W : IVec ⟨2, ![N, K]⟩ 32) (s : FVec Ideal ⟨1, ![1]⟩ .f32) (b : FVec Ideal ⟨1, ![N]⟩ .f32)
    (h1 : (⟨3, ![B, S, K]⟩ : Shape).ShapeCasts ⟨2, ![R, K]⟩) (h2 : (⟨2, ![R, N]⟩ : Shape).ShapeCasts ⟨3, ![B, S, N]⟩) :
    shapeCast ⟨3, ![B, S, N]⟩ (rows (shapeCast ⟨2, ![R, K]⟩ X h1) W s b) h2 = stack X W s b := by
  funext i
  obtain ⟨b0, s0, q, rfl⟩ : ∃ (b0 : Fin B) (s0 : Fin S) (q : Fin N), i = ix3 b0 s0 q := ⟨i 0, i 1, i 2, eq_ix3 i⟩
  have hlt : b0.val * S + s0.val < R := by
    rw [hR]
    exact Nat.lt_of_lt_of_le (Nat.add_lt_add_left s0.isLt _) (by rw [← Nat.succ_mul]; exact Nat.mul_le_mul_right _ b0.isLt)
  rw [unflatten_apply _ h2 b0 s0 q ⟨_, hlt⟩ rfl]
  show (∑ k : Fin K, shapeCast ⟨2, ![R, K]⟩ X h1 (ix2 ⟨_, hlt⟩ k) * weight W s q k) + b (ix1 q)
    = (∑ k : Fin K, X (ix3 b0 s0 k) * weight W s q k) + b (ix1 q)
  congr 1
  refine Finset.sum_congr rfl fun k _ => ?_
  rw [flatten_apply X h1 b0 s0 k ⟨_, hlt⟩ rfl]

end Cert.DequantLinear

end
-- ==== Proof.Tile.lean ====
/-
  One tile of the kernel. At a grid point the body holds a block of 512 input rows, a block of 256 rows of integer
  weight codes, the scale, and the 256 bias entries of those weight rows. It multiplies the codes (read as signed
  integers) by the scale, takes the product of the input block with that block contracted along the last axis of
  BOTH (into a zero accumulator), and adds the bias laid out as one row spread over the 512 rows.

  On the extended reals the two narrowings to a 16-bit format are the identity, so the tile is the linear layer of
  `DequantLinear.rows` on the blocks: entry (p, q) is the sum over k of x(p, k) * (code(q, k) * scale) plus bias(q).
-/
import proofs.«108331_j42975442764444_1_alg».proof.Proof.Gen.KernelIdeal.Skeleton
import proofs.«108331_j42975442764444_1_alg».proof.Proof.LibDotsNT
import proofs.«108331_j42975442764444_1_alg».proof.Proof.DequantLinear
import Idealize.ShloMosaic.Lib.ValueLayout
import Idealize.ShloMosaic.Lib.Pipeline.Value

noncomputable section

open scoped BigOperators

namespace Cert.DequantLinear

open Idealize.ShloMosaic Idealize.ShloMosaic.ValueIdx Cert.KernelIdeal Cert.KernelIdeal.Gen

/-- Extracting position 0 of a one-entry vector reads its entry. -/
theorem extract_scale {α : Type} (x : (⟨1, ![1]⟩ : Shape).Idx → α) (h : ∀ a, (![0] : Fin 1 → Nat) a < (⟨1, ![1]⟩ : Shape).size a) :
    extractAt ![0] x h = x (ix1 0) :=
  congrArg x (funext fun a => match a with | ⟨0, _⟩ => rfl)

/-- The tile is the linear layer on its blocks. -/
theorem tile_eq_rows (x0 : Vec Ideal S512x4096 .f32) (x2 : Vec Ideal S1 .f32) (x1 : Vec Ideal S256x4096 .i32)
    (x3 : Vec Ideal S256 .f32) : k0_pay1 (F := Ideal) x0 x2 x1 x3 = rows x0 x1 x2 x3 := by
  funext j
  obtain ⟨p, q, rfl⟩ : ∃ (p : Fin 512) (q : Fin 256), j = ix2 p q := ⟨j 0, j 1, eq_ix2 j⟩
  unfold k0_pay1
  refine (addf_apply _ _ _).trans ?_
  show _ = (∑ k : Fin 4096, x0 (ix2 p k) * weight x1 x2 q k) + x3 (ix1 q)
  congr 1
  · refine (Cert.LibDotsNT.nt_matmul_zero_apply dot_S512x4096_S256x4096_S512x256_1_1_0_0_n_n rfl rfl rfl rfl rfl rfl
      none _ _ p q).trans ?_
    refine Finset.sum_congr rfl fun k _ => ?_
    rw [truncf_apply, truncf_apply, shapeCast_self, mulf_apply, sitofp_apply, broadcast_apply, extract_scale]
    rfl
  · exact (broadcastTo_1b_ab_apply _ _ p q).trans (shapeCast_a_1a_apply _ _ 0 q)

end Cert.DequantLinear

end
-- ==== Proof.Blocks.lean ====
/-
  From the tiles to the whole result matrix.

  The grid has 16 x 16 points; point t = 16 * i + j takes input rows 512 i .. 512 i + 511 (all 4096 columns), the
  weight-code rows 256 j .. 256 j + 255 (all columns), the scale, the bias entries 256 j .. 256 j + 255, and writes
  back rows 512 i .. 512 i + 511, columns 256 j .. 256 j + 255 of the [8192, 4096] result. An entry of the layer
  depends only on its own input row, its own row of codes and its own bias entry, so what a point writes back is
  that block of the layer applied to the whole arrays; and the 256 blocks tile the result, entry (r, q) lying in the
  block of point 16 * (r / 512) + q / 256. So the result array ends holding the layer of the whole arrays.
-/
import proofs.«108331_j42975442764444_1_alg».proof.Proof.Gen.KernelIdeal.Frame
import proofs.«108331_j42975442764444_1_alg».proof.Proof.Tile
import Idealize.ShloMosaic.Lib.Pipeline.Value

noncomputable section

open scoped BigOperators

namespace Cert.DequantLinear

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zero_off2 : (![0, 0] : Fin 2 → Nat) = fun _ => 0 := funext fun a => by fin_cases a <;> rfl
theorem zero_off1 : (![0] : Fin 1 → Nat) = fun _ => 0 := funext fun a => by fin_cases a <;> rfl

/-- Which block each window takes at point t: the result's block is (t / 16, t % 16); the input follows its row
    index, the codes and the bias follow its column index, the scale has one block; the input and the codes take
    whole rows (column block 0). -/
theorem block_indices : ∀ t : Fin cfg0.N,
    win0_4.index t (0 : Fin 2) = t.val / 16 ∧ win0_4.index t (1 : Fin 2) = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 1) = 0
    ∧ win0_3.index t (0 : Fin 1) = t.val % 16 :=
  (by decide +kernel : ∀ t : Fin grid0.N, _)

/-- What point t writes back is block t of the layer applied to the arrays as the region finds them. -/
theorem flushed_eq (c : Dev nD) (t : Fin cfg0.N) :
    (dats m 0 c).flushed 4 t = ((cfg0.win 4).blk t).view.read (Elt Ideal)
      (rows (V m c main_v0) (V m c main_arg1) (V m c main_arg2) (V m c main_arg3)) := by
  show (cfg0.win 4).cut (grid0.coords t) ((dats m 0 c).after 4 t) = _
  rw [after0_4]
  unfold out0_4
  rw [View.canon_unit_zero zero_off2]
  simp only [View.ld_unit_zero (S := S512x4096) zero_off2, View.ld_unit_zero (S := S1) zero_off1,
    View.ld_unit_zero (S := S256x4096) zero_off2, View.ld_unit_zero (S := S256) zero_off1]
  rw [tile_eq_rows]
  obtain ⟨e40, e41, e00, e01, e10, e11, e20, e30⟩ := block_indices t
  funext y
  refine rows_of_blocks (R := 8192) (K := 4096) (N := 4096) (r := 512) (n := 256)
    (V m c main_v0) (V m c main_arg1) (V m c main_arg2) (V m c main_arg3)
    (iblk m c 0 t) (iblk m c 1 t) (iblk m c 2 t) (iblk m c 3 t) y (((cfg0.win 4).blk t).view.emb y) ?_ ?_ ?_ ?_
  · intro k
    show V m c main_v0 (((cfg0.win 0).blk t).view.emb (ix2 (y 0) k)) = V m c main_v0 (ix2 ((((cfg0.win 4).blk t).view.emb y) 0) k)
    refine congrArg (V m c main_v0) (funext fun a => Fin.ext ?_)
    match a with
    | ⟨0, _⟩ =>
      show win0_0.index t (0 : Fin 2) * 512 + 1 * (y 0).val = win0_4.index t (0 : Fin 2) * 512 + 1 * (y 0).val
      rw [e00, e40]
    | ⟨1, _⟩ =>
      show win0_0.index t (1 : Fin 2) * 4096 + 1 * k.val = k.val
      rw [e01]; omega
  · intro k
    show V m c main_arg1 (((cfg0.win 1).blk t).view.emb (ix2 (y 1) k)) = V m c main_arg1 (ix2 ((((cfg0.win 4).blk t).view.emb y) 1) k)
    refine congrArg (V m c main_arg1) (funext fun a => Fin.ext ?_)
    match a with
    | ⟨0, _⟩ =>
      show win0_1.index t (0 : Fin 2) * 256 + 1 * (y 1).val = win0_4.index t (1 : Fin 2) * 256 + 1 * (y 1).val
      rw [e10, e41]
    | ⟨1, _⟩ =>
      show win0_1.index t (1 : Fin 2) * 4096 + 1 * k.val = k.val
      rw [e11]; omega
  · show V m c main_arg2 (((cfg0.win 2).blk t).view.emb (ix1 0)) = V m c main_arg2 (ix1 0)
    refine congrArg (V m c main_arg2) (funext fun a => Fin.ext ?_)
    match a with
    | ⟨0, _⟩ =>
      show win0_2.index t (0 : Fin 1) * 1 + 1 * 0 = 0
      rw [e20]
  · show V m c main_arg3 (((cfg0.win 3).blk t).view.emb (ix1 (y 1))) = V m c main_arg3 (ix1 ((((cfg0.win 4).blk t).view.emb y) 1))
    refine congrArg (V m c main_arg3) (funext fun a => Fin.ext ?_)
    match a with
    | ⟨0, _⟩ =>
      show win0_3.index t (0 : Fin 1) * 256 + 1 * (y 1).val = win0_4.index t (1 : Fin 2) * 256 + 1 * (y 1).val
      rw [e30, e41]

/-- An entry of the result array is in point t's block iff each coordinate is in the block's range on its axis. -/
theorem mem_block (t : Fin cfg0.N) (i : S8192x4096.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v1).slice (win0_4.rect t)).set ↔ _
  rw [View.set_slice_whole, Rect.mem_set_unit]
  exact Iff.rfl

/-- Every entry (r, q) of the result array lies in the block written back at point 16 * (r / 512) + q / 256. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  have hlt : (i 0).val / 512 * 16 + (i 1).val / 256 < cfg0.N := by rw [hN]; omega
  obtain ⟨e40, e41, -⟩ := block_indices ⟨_, hlt⟩
  refine ⟨⟨_, hlt⟩, flush0_4 _, ?_⟩
  rw [mem_block]
  intro a
  match a with
  | ⟨0, _⟩ =>
    show win0_4.index ⟨_, hlt⟩ (0 : Fin 2) * 512 ≤ (i 0).val ∧ (i 0).val < win0_4.index ⟨_, hlt⟩ (0 : Fin 2) * 512 + 512
    rw [e40]
    show ((i 0).val / 512 * 16 + (i 1).val / 256) / 16 * 512 ≤ (i 0).val
      ∧ (i 0).val < ((i 0).val / 512 * 16 + (i 1).val / 256) / 16 * 512 + 512
    omega
  | ⟨1, _⟩ =>
    show win0_4.index ⟨_, hlt⟩ (1 : Fin 2) * 256 ≤ (i 1).val ∧ (i 1).val < win0_4.index ⟨_, hlt⟩ (1 : Fin 2) * 256 + 256
    rw [e41]
    show ((i 0).val / 512 * 16 + (i 1).val / 256) % 16 * 256 ≤ (i 1).val
      ∧ (i 1).val < ((i 0).val / 512 * 16 + (i 1).val / 256) % 16 * 256 + 256
    omega

/-- The result array after the region: the layer applied to the arrays as the region finds them. -/
theorem result_array (c : Dev nD) : (dats m 0 c).arrAt 4 cfg0.N
    = rows (V m c main_v0) (V m c main_arg1) (V m c main_arg2) (V m c main_arg3) :=
  (dats m 0 c).arrAt_eq_of_cover 4 _ (fun t _ => flushed_eq m c t) covered

end Cert.DequantLinear

end
-- ==== Proof.KernelRun.lean ====
/-
  The kernel program's run, read as a value. The program flattens the [4, 2048, 4096] input to [8192, 4096] rows on
  the host (row b * 2048 + s is row (b, s)), runs the tiled region, whose result array ends holding the layer of those
  rows (`result_array`), and restores the [4, 2048, 4096] stack shape on the host. Flattening, the layer on rows and
  restoring the shape is the layer on the stack (`unflatten_rows_flatten`), so the program's result buffer ends at
  `DequantLinear.stack` of the four argument arrays, which it leaves unchanged.
-/
import proofs.«108331_j42975442764444_1_alg».proof.Proof.Blocks
import Idealize.ShloMosaic.Lib.StableHlo.Run

noncomputable section

open scoped BigOperators

namespace Cert.DequantLinear

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The region finds, as its input rows, the input stack flattened by the host. -/
theorem entry_input (c : Dev nD) : (V m c main_v0 : S8192x4096.Idx → EReal)
    = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- The region's result array, in terms of the program's arguments: the layer on the flattened input. -/
theorem region_result (c : Dev nD) :
    Pipeline.withArrays (cfgs 0).spec c (V0 m c) (fun w => (dats m 0 c).arrAt w (cfgs 0).N) (Proc.devRef .tc main_v1)
      = rows (shapeCast S8192x4096 (m ((c : Thread nD τ).loc main_arg0)) Facts₀.shapeCasts_S4x2048x4096_S8192x4096)
          (m ((c : Thread nD τ).loc main_arg1)) (m ((c : Thread nD τ).loc main_arg2)) (m ((c : Thread nD τ).loc main_arg3)) :=
  (Pipeline.withArrays_arr spec0 launch0.win.arr_inj c _ _ 4).trans
    ((result_array m c).trans (by rw [entry_input, V_main_arg1, V_main_arg2, V_main_arg3]))

/-- The program's result buffer after the host restores the stack shape: the layer on the stack. -/
theorem result_buffer (c : Dev nD) :
    (Pipeline.afterTail₀ cfgs (dats m) 0 (V0 m) [hostOps1] c main_v2 : S4x2048x4096.Idx → EReal)
      = stack (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v2) = _
  after_results
  exact (congrArg (fun Y : S8192x4096.Idx → EReal => shapeCast S4x2048x4096 Y Facts₀.shapeCasts_S8192x4096_S4x2048x4096)
      (region_result m c)).trans (unflatten_rows_flatten (by norm_num) _ _ _ _ _ _)

/-- Every weakly fair execution of the kernel program terminates with its result buffer at the layer on the stack
    of its argument arrays, and those unchanged. -/
theorem run : θ_run defs (onTc (τ := τ) (main (F := Ideal))) ⟨m, fun _ => 0, ρ⟩ fun r => ∀ c : Dev nD,
      r.2.mem ((c.tc : Thread nD τ).loc main_v2)
        = stack (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans (result_buffer m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.DequantLinear

end
-- ==== Proof.RefStack.lean ====
/-
  The reference program is the layer on the stack. It converts the codes to floats, spreads the scale over the
  weight's shape and multiplies, contracts the last axis of the [4, 2048, 4096] input with the last axis of that
  weight, and adds the bias spread over the stack. Read at an entry (b, s, q) through the generated one-operation
  lemmas this is the sum over k of x(b, s, k) * (code(q, k) * scale) plus bias(q): `DequantLinear.stack`.
-/
import proofs.«108331_j42975442764444_1_alg».proof.Proof.Gen.ReferenceIdeal.Read
import proofs.«108331_j42975442764444_1_alg».proof.Proof.DequantLinear

noncomputable section

open scoped BigOperators

namespace Cert.DequantLinear

open Idealize.ShloMosaic Idealize.ShloMosaic.ValueIdx Cert.ReferenceIdeal Cert.ReferenceIdeal.Read

/-- The reference's result, as a function of its four argument arrays, is the layer on the stack. -/
theorem reference_eq_stack (x0 : (⟨S4x2048x4096, .f32⟩ : BufTy).Contents (Elt Ideal))
    (x1 : (⟨S4096x4096, .i32⟩ : BufTy).Contents (Elt Ideal)) (x2 : (⟨S1, .f32⟩ : BufTy).Contents (Elt Ideal))
    (x3 : (⟨S4096, .f32⟩ : BufTy).Contents (Elt Ideal)) :
    val_main_v7 (F := Ideal) x0 x1 x2 x3 = stack x0 x1 x2 x3 := by
  funext i
  obtain ⟨b0, s0, q, rfl⟩ : ∃ (b0 : Fin 4) (s0 : Fin 2048) (q : Fin 4096), i = ix3 b0 s0 q := ⟨i 0, i 1, i 2, eq_ix3 i⟩
  rw [val_main_v7_apply, val_main_v4_apply, val_main_v6_apply, val_main_v5_apply]
  show (∑ k : Fin 4096, x0 (lidx_main_v4 (ix3 b0 s0 q) k) * val_main_v3 (F := Ideal) x1 x2 (ridx_main_v4 (ix3 b0 s0 q) k))
      + x3 (idx_main_v5 (idx_main_v6 (ix3 b0 s0 q)))
    = (∑ k : Fin 4096, x0 (ix3 b0 s0 k) * weight x1 x2 q k) + x3 (ix1 q)
  congr 1
  · refine Finset.sum_congr rfl fun k _ => ?_
    have el : lidx_main_v4 (ix3 b0 s0 q) k = ix3 b0 s0 k :=
      funext fun a => match a with | ⟨0, _⟩ => rfl | ⟨1, _⟩ => rfl | ⟨2, _⟩ => rfl
    have er : ridx_main_v4 (ix3 b0 s0 q) k = ix2 q k := funext fun a => match a with | ⟨0, _⟩ => rfl | ⟨1, _⟩ => rfl
    have es : idx_main_v1 (idx_main_v2 (ix2 q k)) = ix1 0 := funext fun a => match a with | ⟨0, _⟩ => rfl
    rw [val_main_v3_apply, val_main_v0_apply, val_main_v2_apply, val_main_v1_apply, el, er, es]
    rfl
  · exact congrArg x3 (funext fun a => match a with | ⟨0, _⟩ => rfl)

end Cert.DequantLinear

end
-- ==== Proof.lean ====
/-
  The certificate of a linear layer with an integer-coded weight: out = x · (codes * scale)ᵀ + bias.

  The kernel flattens the [4, 2048, 4096] input to 8192 rows, computes the layer in 16 x 16 tiles of 512 rows by 256
  output columns (each tile one product over the full 4096-long contraction, the operands narrowed to a 16-bit format
  first), and restores the stack shape. The reference multiplies the codes by the scale, contracts the input stack
  with that weight and adds the bias. On the extended reals the narrowings are the identity and a product into a zero
  accumulator is a plain sum, so both are, entry by entry,
      out(b, s, q) = (sum over k of x(b, s, k) * (code(q, k) * scale)) + bias(q)
  (`DequantLinear.stack`): the kernel by `DequantLinear.run` (tile, blocks, the two reshapes), the reference by
  `DequantLinear.reference_eq_stack` over its generated run. The same sum in the same order on both sides: no
  algebraic law is used and the finiteness of the inputs is not needed. The three frames are the generated ones (the
  reference's is its generated run with the result dropped), and the idealization rewrote nothing, so `preserves`
  is trivial.
-/
import proofs.«108331_j42975442764444_1_alg».proof.Defs
import proofs.«108331_j42975442764444_1_alg».proof.Proof.Gen.Kernel
import proofs.«108331_j42975442764444_1_alg».proof.Proof.Gen.Kernel.Skeleton
import proofs.«108331_j42975442764444_1_alg».proof.Proof.Gen.Kernel.Launch
import proofs.«108331_j42975442764444_1_alg».proof.Proof.Gen.Kernel.Points
import proofs.«108331_j42975442764444_1_alg».proof.Proof.Gen.Kernel.Frame
import proofs.«108331_j42975442764444_1_alg».proof.Proof.Gen.KernelIdeal
import proofs.«108331_j42975442764444_1_alg».proof.Proof.Gen.KernelIdeal.Skeleton
import proofs.«108331_j42975442764444_1_alg».proof.Proof.Gen.KernelIdeal.Launch
import proofs.«108331_j42975442764444_1_alg».proof.Proof.Gen.KernelIdeal.Points
import proofs.«108331_j42975442764444_1_alg».proof.Proof.Gen.KernelIdeal.Frame
import proofs.«108331_j42975442764444_1_alg».proof.Proof.Gen.ReferenceIdeal
import proofs.«108331_j42975442764444_1_alg».proof.Proof.Gen.ReferenceIdeal.Run
import proofs.«108331_j42975442764444_1_alg».proof.Proof.Gen.ReferenceIdeal.Read
import proofs.«108331_j42975442764444_1_alg».proof.Proof.Gen.Pre_finite_inputs
import proofs.«108331_j42975442764444_1_alg».proof.Proof.KernelRun
import proofs.«108331_j42975442764444_1_alg».proof.Proof.RefStack
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the layer on the stack of those arguments
    in their result buffers. -/
theorem algebraic : Cert.algebraic_KernelIdeal_ReferenceIdeal := by
  intro m ρ m' ρ' _ hagree
  refine ⟨_, Cert.DequantLinear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.DequantLinear.reference_eq_stack,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
